-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S5000x128 : Shape := ⟨2, ![5000, 128]⟩
abbrev S1x128 : Shape := ⟨2, ![1, 128]⟩

abbrev nBuf : Space → Nat
  | .hbm => 98
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S_, .f32⟩
  | .hbm, ⟨41, _⟩ => ⟨S100000, .f32⟩
  | .hbm, ⟨42, _⟩ => ⟨S100000, .i1⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000, .f32⟩
  | .hbm, ⟨60, _⟩ => ⟨S600000, .f32⟩
  | .hbm, ⟨61, _⟩ => ⟨S600000x1, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S600000x128, .f32⟩
  | .hbm, ⟨72, _⟩ => ⟨S600000x128, .f32⟩
  | .hbm, ⟨73, _⟩ => ⟨S_, .f32⟩
  | .hbm, ⟨74, _⟩ => ⟨S100000x128, .f32⟩
  | .hbm, ⟨75, _⟩ => ⟨S600000x1, .i32⟩
  | .hbm, ⟨76, _⟩ => ⟨S100000x128, .f32⟩
  | .hbm, ⟨77, _⟩ => ⟨S600000x1, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S600000x128, .f32⟩
  | .hbm, ⟨88, _⟩ => ⟨S600000x128, .f32⟩
  | .hbm, ⟨89, _⟩ => ⟨S_, .f32⟩
  | .hbm, ⟨90, _⟩ => ⟨S100000x128, .f32⟩
  | .hbm, ⟨91, _⟩ => ⟨S600000x1, .i32⟩
  | .hbm, ⟨92, _⟩ => ⟨S100000x128, .f32⟩
  | .hbm, ⟨93, _⟩ => ⟨S128x128, .f32⟩
  | .hbm, ⟨94, _⟩ => ⟨S128x128, .bf16⟩
  | .hbm, ⟨95, _⟩ => ⟨S128x128, .f32⟩
  | .hbm, ⟨96, _⟩ => ⟨S128x128, .bf16⟩
  | .hbm, ⟨97, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_14 : Ref sig .tc := ⟨.hbm, 78, rfl⟩
abbrev main_v52 : Ref sig .tc := ⟨.hbm, 79, rfl⟩
abbrev main_v53 : Ref sig .tc := ⟨.hbm, 80, rfl⟩
abbrev main_c_15 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v50) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v63) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v65) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v67) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v68) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S_, .f32⟩
  | .hbm, ⟨11, _⟩ => ⟨S600000, .f32⟩
  | .hbm, ⟨12, _⟩ => ⟨S_, .f32⟩
  | .hbm, ⟨13, _⟩ => ⟨S100000, .f32⟩
  | .hbm, ⟨14, _⟩ => ⟨S600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000, .f32⟩
  | .hbm, ⟨40, _⟩ => ⟨S_, .f32⟩
  | .hbm, ⟨41, _⟩ => ⟨S100000, .f32⟩
  | .hbm, ⟨42, _⟩ => ⟨S100000, .i1⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S_, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000, .f32⟩
  | .hbm, ⟨60, _⟩ => ⟨S600000, .f32⟩
  | .hbm, ⟨61, _⟩ => ⟨S600000x1, .f32⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .f32⟩
  | .hbm, ⟨71, _⟩ => ⟨S600000x128, .f32⟩
  | .hbm, ⟨72, _⟩ => ⟨S600000x128, .f32⟩
  | .hbm, ⟨73, _⟩ => ⟨S_, .f32⟩
  | .hbm, ⟨74, _⟩ => ⟨S100000x128, .f32⟩
  | .hbm, ⟨75, _⟩ => ⟨S600000x1, .i32⟩
  | .hbm, ⟨76, _⟩ => ⟨S100000x128, .f32⟩
  | .hbm, ⟨77, _⟩ => ⟨S600000x1, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S600000x128, .f32⟩
  | .hbm, ⟨88, _⟩ => ⟨S600000x128, .f32⟩
  | .hbm, ⟨89, _⟩ => ⟨S_, .f32⟩
  | .hbm, ⟨90, _⟩ => ⟨S100000x128, .f32⟩
  | .hbm, ⟨91, _⟩ => ⟨S600000x1, .i32⟩
  | .hbm, ⟨92, _⟩ => ⟨S100000x128, .f32⟩
  | .hbm, ⟨93, _⟩ => ⟨S128x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S128x128, .f32⟩
  | .hbm, ⟨99, _⟩ => ⟨S100000x128, .f32⟩
  | .hbm, ⟨100, _⟩ => ⟨S1x128, .f32⟩
  | .hbm, ⟨101, _⟩ => ⟨S100000x128, .f32⟩
  | .hbm, ⟨102, _⟩ => ⟨S100000x128, .f32⟩
  | .hbm, ⟨103, _⟩ => ⟨S_, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | .hbm, ⟨109, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_c_9 : Ref sig .tc := ⟨.hbm, 51, rfl⟩
abbrev main_v30 : Ref sig .tc := ⟨.hbm, 52, rfl⟩
abbrev main_v31 : Ref sig .tc := ⟨.hbm, 53, rfl⟩
abbrev main_c_10 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_14 : Ref sig .tc := ⟨.hbm, 78, rfl⟩
abbrev main_v52 : Ref sig .tc := ⟨.hbm, 79, rfl⟩
abbrev main_v53 : Ref sig .tc := ⟨.hbm, 80, rfl⟩
abbrev main_c_15 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_16 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_17 : Ref sig .tc := ⟨.hbm, 103, rfl⟩
abbrev main_v74 : Ref sig .tc := ⟨.hbm, 104, rfl⟩
abbrev main_v75 : Ref sig .tc := ⟨.hbm, 105, rfl⟩
abbrev main_cst_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«124174_j62723702391593_1_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.DualLayer.lean ====
/-
  The convex combination of two dense layers, on the extended reals.

  For two input matrices A_s, A_d (rows p, features k), two weight matrices W_s, W_d and two biases b_s, b_d, entry (p, q) of
  the result is

      h · (Σ_k A_s[p, k] · W_s[k, q] + b_s[q])  +  h · (Σ_k A_d[p, k] · W_d[k, q] + b_d[q]),

  where h is the extended real the f32 word of one half denotes. Both programs compute exactly this expression, in this
  arrangement, so no law of the extended reals beyond the reading of a contraction as a sum is needed, and nothing here
  assumes finiteness. Row p of the result depends on row p of A_s and of A_d alone: a block of rows is computed on its own.
-/
import proofs.«124174_j62723702391593_1_alg».proof.Proof.LibDenseLayer
import Idealize.ShloMosaic.PureOps.Ideal
import Idealize.ShloMosaic.Lib.ValueIdx

noncomputable section

open scoped BigOperators

namespace Cert.Bridge.DualLayer

open Idealize.ShloMosaic Idealize.ShloMosaic.ValueIdx Cert.Bridge

variable {M M' K N : Nat}

/-- The weight of each branch: the extended real the f32 word of one half denotes. -/
abbrev half : EReal := Ideal.ofBits .f32 0x3F000000#32

/-- Entry (p, q) of the combination: each branch an unclamped dense layer, each weighted by one half. -/
def mix (As Ad : Fin M → Fin K → EReal) (Ws Wd : Fin K → Fin N → EReal) (bs bd : Fin N → EReal) (p : Fin M) (q : Fin N) : EReal :=
  half * Spec.head As Ws bs p q + half * Spec.head Ad Wd bd p q

/-- Row p of the combination is a function of row p of each input alone: re-indexing the rows of both inputs re-indexes
    the rows of the result. -/
theorem mix_rows (σ : Fin M' → Fin M) (As Ad : Fin M → Fin K → EReal) (Ws Wd : Fin K → Fin N → EReal) (bs bd : Fin N → EReal) :
    mix (fun r => As (σ r)) (fun r => Ad (σ r)) Ws Wd bs bd = fun r => mix As Ad Ws Wd bs bd (σ r) := rfl

/-- A vector as a function of its coordinate. -/
abbrev vec (b : (⟨1, ![N]⟩ : Shape).Idx → EReal) : Fin N → EReal := fun q => b (ix1 q)

/-- The combination as one array: the [M, N] matrix whose entry at an index is `mix` at the index's two coordinates. -/
def array (xs xd : (⟨2, ![M, K]⟩ : Shape).Idx → EReal) (ws wd : (⟨2, ![K, N]⟩ : Shape).Idx → EReal)
    (bs bd : (⟨1, ![N]⟩ : Shape).Idx → EReal) : (⟨2, ![M, N]⟩ : Shape).Idx → EReal :=
  fun i => mix (LayerAt.mat xs) (LayerAt.mat xd) (LayerAt.mat ws) (LayerAt.mat wd) (vec bs) (vec bd)
    ⟨(i 0).val, (i 0).isLt⟩ ⟨(i 1).val, (i 1).isLt⟩

theorem array_apply (xs xd : (⟨2, ![M, K]⟩ : Shape).Idx → EReal) (ws wd : (⟨2, ![K, N]⟩ : Shape).Idx → EReal)
    (bs bd : (⟨1, ![N]⟩ : Shape).Idx → EReal) (p : Fin M) (q : Fin N) :
    array xs xd ws wd bs bd (ix2 p q) = mix (LayerAt.mat xs) (LayerAt.mat xd) (LayerAt.mat ws) (LayerAt.mat wd) (vec bs) (vec bd) p q := rfl

end Cert.Bridge.DualLayer

end
-- ==== Proof.BodyEntry.lean ====
/-
  The kernel's stored block at an entry.

  At the extended reals the body's one stored value, as a function of the six blocks it loads (two [5000, 128] row blocks,
  two [128, 128] weight matrices, two [128] biases), is at entry (p, q)

      h · (Σ_k x0[p, k] · x2[k, q] + x3[q])  +  h · (Σ_k x1[p, k] · x4[k, q] + x5[q]),

  h the extended real of the word of one half: each matrix product into a zero accumulator plus the bias row spread over
  the rows is a dense layer's entry, the changes of float format and the casts to the same shape are identities, and the
  bias, cast from [128] to [1, 128], reads at (0, q) the vector at q.
-/
import proofs.«124174_j62723702391593_1_alg».proof.Proof.Gen.KernelIdeal.Skeleton
import proofs.«124174_j62723702391593_1_alg».proof.Proof.DualLayer
import Idealize.ShloMosaic.Lib.Pipeline.Value
import Idealize.ShloMosaic.Lib.ValueIdx
import Idealize.ShloMosaic.Lib.ValueLayout

noncomputable section

namespace Cert.KernelIdeal.BodyEntry

open Cert.KernelIdeal Cert.KernelIdeal.Gen Idealize.ShloMosaic Idealize.ShloMosaic.ValueIdx Cert.Bridge

/-- The body's dimension numbers are those of the plain product of a 5000 × 128 by a 128 × 128 matrix. -/
theorem dot_plain : dot_S5000x128_S128x128_S5000x128_1_0_0_1_n_n = DotDims.plain 5000 128 128 := rfl

/-- A [128] vector cast to one row, as a function of the column, is the vector as a function of its coordinate. -/
theorem row_cast (x : Vec Ideal S128 .f32) :
    LayerAt.row (shapeCast S1x128 x shapeCasts_S128_S1x128) = DualLayer.vec x :=
  funext fun q => shapeCast_a_1a_apply x shapeCasts_S128_S1x128 (0 : Fin 1) q

/-- The stored block at entry (p, q): the half-and-half combination of the two dense layers of the loaded blocks. -/
theorem pay_apply (x0 x1 : Vec Ideal S5000x128 .f32) (x2 x4 : Vec Ideal S128x128 .bf16) (x3 x5 : Vec Ideal S128 .f32)
    (p : Fin 5000) (q : Fin 128) :
    k0_pay1 (F := Ideal) x0 x1 x2 x3 x4 x5 (ix2 p q)
      = DualLayer.mix (LayerAt.mat x0) (LayerAt.mat x1) (LayerAt.mat x2) (LayerAt.mat x4) (DualLayer.vec x3) (DualLayer.vec x5) p q := by
  unfold k0_pay1
  simp only [shapeCast_self, dot_plain]
  rw [addf_apply, mulf_apply, mulf_apply, broadcast_apply, LayerAt.head_apply, LayerAt.head_apply, row_cast, row_cast]
  rfl

end Cert.KernelIdeal.BodyEntry

end
-- ==== Proof.BlockRows.lean ====
/-
  From the row blocks to the whole array.

  The grid has 20 points; point t loads rows 5000·t … 5000·t + 4999 of the two input arrays and the whole of the two
  weight matrices and the two biases, and writes back rows 5000·t … 5000·t + 4999 of the output. Entry (p, q) of what it
  writes is the half-and-half combination of the two dense layers at row p of its input blocks, and a row of that
  combination depends on the same row of the inputs alone; so what point t writes back is block t of ONE array, the
  combination of the whole inputs. Every row r lies in the block of point r / 5000, so after the run the output array is
  that combination.
-/
import proofs.«124174_j62723702391593_1_alg».proof.Proof.Gen.KernelIdeal.Value
import proofs.«124174_j62723702391593_1_alg».proof.Proof.BodyEntry

noncomputable section

namespace Cert.KernelIdeal.BlockRows

open Cert.KernelIdeal Cert.KernelIdeal.Gen Idealize.ShloMosaic Idealize.ShloMosaic.TcCoe Idealize.SL.Sem
open Idealize.ShloMosaic.ValueIdx Cert.Bridge
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a; rfl

/-- The output array: the combination of the two dense layers of the whole input arrays, as the region finds them. -/
def result (c : Dev nD) : S100000x128.Idx → EReal :=
  DualLayer.array (V m c main_v50) (V m c main_v63) (V m c main_v65) (V m c main_v67) (V m c main_arg3) (V m c main_arg5)

/-- The block indices at point t, decided over the 20 points: the two row-blocked inputs and the output are at row
    block t, column block 0; the weights and the biases are at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Two functions of a matrix index that agree at every pair of coordinates are equal. -/
theorem ext2 {n0 n1 : Nat} {α : Type} (f g : (⟨2, ![n0, n1]⟩ : Shape).Idx → α) (h : ∀ p q, f (ix2 p q) = g (ix2 p q)) : f = g :=
  funext fun j => by rw [eq_ix2 j]; exact h _ _

/-- Two functions of a vector index that agree at every coordinate are equal. -/
theorem ext1 {n : Nat} {α : Type} (f g : (⟨1, ![n]⟩ : Shape).Idx → α) (h : ∀ q, f (ix1 q) = g (ix1 q)) : f = g :=
  funext fun j => by rw [eq_ix1 j]; exact h _

/-- Row p of point t's block is row 5000·t + p of the array. -/
def rowOf (t : Fin cfg0.N) (p : Fin 5000) : Fin 100000 :=
  ⟨5000 * t.val + p.val, by have := t.isLt; have := p.isLt; have h : cfg0.N = 20 := N_0; omega⟩

/-! ## Each loaded block, read off its array -/

/-- The first input's block at point t: entry (p, k) is entry (5000·t + p, k) of the array. -/
theorem rows0 (c : Dev nD) (t : Fin cfg0.N) (p : Fin 5000) (k : Fin 128) :
    (iblk m c 0 t : Vec Ideal S5000x128 .f32) (ix2 p k) = (V m c main_v50 : S100000x128.Idx → EReal) (ix2 (rowOf t p) k) := by
  obtain ⟨e0, e1, -⟩ := block_indices t
  unfold iblk
  refine (View.read_apply _ _).trans ((cast_eq _ _).trans ?_)
  refine congrArg (V m c main_v50) ?_
  funext a
  apply Fin.ext
  match a with
  | ⟨0, _⟩ => show win0_0.index t (0 : Fin 2) * 5000 + 1 * p.val = 5000 * t.val + p.val; omega
  | ⟨1, _⟩ => show win0_0.index t (1 : Fin 2) * 128 + 1 * k.val = k.val; omega

/-- The second input's block at point t: entry (p, k) is entry (5000·t + p, k) of the array. -/
theorem rows1 (c : Dev nD) (t : Fin cfg0.N) (p : Fin 5000) (k : Fin 128) :
    (iblk m c 1 t : Vec Ideal S5000x128 .f32) (ix2 p k) = (V m c main_v63 : S100000x128.Idx → EReal) (ix2 (rowOf t p) k) := by
  obtain ⟨-, -, e0, e1, -⟩ := block_indices t
  unfold iblk
  refine (View.read_apply _ _).trans ((cast_eq _ _).trans ?_)
  refine congrArg (V m c main_v63) ?_
  funext a
  apply Fin.ext
  match a with
  | ⟨0, _⟩ => show win0_1.index t (0 : Fin 2) * 5000 + 1 * p.val = 5000 * t.val + p.val; omega
  | ⟨1, _⟩ => show win0_1.index t (1 : Fin 2) * 128 + 1 * k.val = k.val; omega

/-- The first weight matrix's block at every point is the whole matrix. -/
theorem whole2 (c : Dev nD) (t : Fin cfg0.N) :
    (iblk m c 2 t : Vec Ideal S128x128 .bf16) = (V m c main_v65 : S128x128.Idx → EReal) := by
  obtain ⟨-, -, -, -, e0, e1, -⟩ := block_indices t
  refine ext2 _ _ fun p q => ?_
  unfold iblk
  refine (View.read_apply _ _).trans ((cast_eq _ _).trans ?_)
  refine congrArg (V m c main_v65) ?_
  funext a
  apply Fin.ext
  match a with
  | ⟨0, _⟩ => show win0_2.index t (0 : Fin 2) * 128 + 1 * p.val = p.val; omega
  | ⟨1, _⟩ => show win0_2.index t (1 : Fin 2) * 128 + 1 * q.val = q.val; omega

/-- The first bias's block at every point is the whole vector. -/
theorem whole3 (c : Dev nD) (t : Fin cfg0.N) :
    (iblk m c 3 t : Vec Ideal S128 .f32) = (V m c main_arg3 : S128.Idx → EReal) := by
  obtain ⟨-, -, -, -, -, -, e0, -⟩ := block_indices t
  refine ext1 _ _ fun q => ?_
  unfold iblk
  refine (View.read_apply _ _).trans ((cast_eq _ _).trans ?_)
  refine congrArg (V m c main_arg3) ?_
  funext a
  apply Fin.ext
  match a with
  | ⟨0, _⟩ => show win0_3.index t (0 : Fin 1) * 128 + 1 * q.val = q.val; omega

/-- The second weight matrix's block at every point is the whole matrix. -/
theorem whole4 (c : Dev nD) (t : Fin cfg0.N) :
    (iblk m c 4 t : Vec Ideal S128x128 .bf16) = (V m c main_v67 : S128x128.Idx → EReal) := by
  obtain ⟨-, -, -, -, -, -, -, e0, e1, -⟩ := block_indices t
  refine ext2 _ _ fun p q => ?_
  unfold iblk
  refine (View.read_apply _ _).trans ((cast_eq _ _).trans ?_)
  refine congrArg (V m c main_v67) ?_
  funext a
  apply Fin.ext
  match a with
  | ⟨0, _⟩ => show win0_4.index t (0 : Fin 2) * 128 + 1 * p.val = p.val; omega
  | ⟨1, _⟩ => show win0_4.index t (1 : Fin 2) * 128 + 1 * q.val = q.val; omega

/-- The second bias's block at every point is the whole vector. -/
theorem whole5 (c : Dev nD) (t : Fin cfg0.N) :
    (iblk m c 5 t : Vec Ideal S128 .f32) = (V m c main_arg5 : S128.Idx → EReal) := by
  obtain ⟨-, -, -, -, -, -, -, -, -, e0, -⟩ := block_indices t
  refine ext1 _ _ fun q => ?_
  unfold iblk
  refine (View.read_apply _ _).trans ((cast_eq _ _).trans ?_)
  refine congrArg (V m c main_arg5) ?_
  funext a
  apply Fin.ext
  match a with
  | ⟨0, _⟩ => show win0_5.index t (0 : Fin 1) * 128 + 1 * q.val = q.val; omega

/-- Entry (p, q) of the output's block at point t sits at entry (5000·t + p, q) of the output array. -/
theorem out_at (t : Fin cfg0.N) (p : Fin 5000) (q : Fin 128) :
    ((cfg0.win 6).blk t).view.emb (ix2 p q : S5000x128.Idx) = (ix2 (rowOf t p) q : S100000x128.Idx) := by
  obtain ⟨-, -, -, -, -, -, -, -, -, -, e0, e1⟩ := block_indices t
  funext a
  apply Fin.ext
  match a with
  | ⟨0, _⟩ => show win0_6.index t (0 : Fin 2) * 5000 + 1 * p.val = 5000 * t.val + p.val; omega
  | ⟨1, _⟩ => show win0_6.index t (1 : Fin 2) * 128 + 1 * q.val = q.val; omega

/-! ## What a point stores is its rows of the combination -/

/-- The stored block, over any six loaded blocks that are rows `ro p` of two arrays, two weight matrices and two
    biases: entry (p, q) is entry (ro p, q) of the combination of the arrays. -/
theorem stored_rows (x0 x1 : Vec Ideal S5000x128 .f32) (x2 : Vec Ideal S128x128 .bf16) (x3 : Vec Ideal S128 .f32)
    (x4 : Vec Ideal S128x128 .bf16) (x5 : Vec Ideal S128 .f32)
    (As Ad : S100000x128.Idx → EReal) (Ws Wd : S128x128.Idx → EReal) (bs bd : S128.Idx → EReal) (ro : Fin 5000 → Fin 100000)
    (h0 : ∀ p k, x0 (ix2 p k) = As (ix2 (ro p) k)) (h1 : ∀ p k, x1 (ix2 p k) = Ad (ix2 (ro p) k))
    (h2 : x2 = Ws) (h3 : x3 = bs) (h4 : x4 = Wd) (h5 : x5 = bd) (p : Fin 5000) (q : Fin 128) :
    k0_pay1 (F := Ideal) x0 x1 x2 x3 x4 x5 (ix2 p q) = DualLayer.array As Ad Ws Wd bs bd (ix2 (ro p) q) := by
  subst h2 h3 h4 h5
  have e0 : LayerAt.mat x0 = fun r => LayerAt.mat As (ro r) := funext fun r => funext fun k => h0 r k
  have e1 : LayerAt.mat x1 = fun r => LayerAt.mat Ad (ro r) := funext fun r => funext fun k => h1 r k
  rw [BodyEntry.pay_apply, DualLayer.array_apply, e0, e1, DualLayer.mix_rows]

/-- WHAT POINT t WRITES BACK is block t of the combination of the whole arrays. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero zeros2]
  simp only [View.ld_unit_zero (S := S5000x128) zeros2, View.ld_unit_zero (S := S128x128) zeros2, View.ld_unit_zero (S := S128) zeros1]
  refine ext2 (n0 := 5000) (n1 := 128) _ _ fun p q => ?_
  show k0_pay1 (F := Ideal) (iblk m c 0 t) (iblk m c 1 t) (iblk m c 2 t) (iblk m c 3 t) (iblk m c 4 t) (iblk m c 5 t) (ix2 p q) = _
  refine (stored_rows (iblk m c 0 t) (iblk m c 1 t) (iblk m c 2 t) (iblk m c 3 t) (iblk m c 4 t) (iblk m c 5 t)
    (V m c main_v50) (V m c main_v63) (V m c main_v65) (V m c main_v67) (V m c main_arg3) (V m c main_arg5) (rowOf t)
    (rows0 m c t) (rows1 m c t) (whole2 m c t) (whole3 m c t) (whole4 m c t) (whole5 m c t) p q).trans ?_
  have hr : ((cfg0.win 6).blk t).view.read (Elt Ideal) (result m c) (ix2 p q : S5000x128.Idx)
      = result m c (((cfg0.win 6).blk t).view.emb (ix2 p q : S5000x128.Idx)) := (View.read_apply _ _).trans (cast_eq _ _)
  refine Eq.trans ?_ hr.symm
  exact congrArg (result m c) (out_at t p q).symm

/-! ## The whole array -/

/-- An index of the output array is in point t's block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v68).slice (win0_6.rect t)).set ↔ _
  rw [View.set_slice_whole, Rect.mem_set_unit]
  exact Iff.rfl

/-- Every index of the output array is in some point's block: row r is in the block of point r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, e0, e1⟩ := block_indices t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the run is the combination of the whole input arrays. -/
theorem final (c : Dev nD) : (dats m 0 c).arrAt 6 cfg0.N = result m c :=
  (dats m 0 c).arrAt_eq_of_cover 6 (result m c) (fun t _ => flushed_eq m c t) covered

/-! ## The run, read -/

/-- The kernel's run: the output array at the combination of the input arrays as the region finds them, the arguments
    unchanged. -/
theorem run : θ_run defs (onTc (τ := τ) (main (F := Ideal))) ⟨m, fun _ => 0, ρ⟩ fun r => ∀ c : Dev nD,
      r.2.mem ((c : Thread nD τ).loc main_v68) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.BlockRows

end
-- ==== Proof.Edges.lean ====
/-
  The graph aggregation both programs run before their dense stage, as functions of the node features x [100000, 128]
  and the edge list e [2, 600000] (row 0 the source endpoints, row 1 the destination endpoints), on the extended reals.

  For an endpoint list, `count` is the number of edges at each node (a scatter-add of ones into zeros); `invSqrt` is
  degree^(-1/2) where the degree is positive and zero elsewhere; an edge's `weight` is invSqrt(out-degree) at its source
  times invSqrt(in-degree) at its destination; and `aggregate` scatter-adds, at each edge's one endpoint, the edge's weight
  times the feature row found at its other endpoint (an endpoint index wrapped the way a negative index is).
  `aggSrc` sums at the sources the rows of the destinations, `aggDst` the other way round. Nothing is proved about
  these functions: both programs compute them by the same operations, so they are only ever compared with themselves.
-/
import proofs.«124174_j62723702391593_1_alg».proof.Proof.Gen.ReferenceIdeal
import Idealize.ShloMosaic.PureOps.Ideal

noncomputable section

namespace Cert.ReferenceIdeal.Edges

open Cert.ReferenceIdeal Cert.ReferenceIdeal.Gen Idealize.ShloMosaic

/-- The edge list, the node features, an endpoint list, a per-node scalar and a per-edge scalar. -/
abbrev EdgeList := IVec S2x600000 32
abbrev Feat := FVec Ideal S100000x128 .f32
abbrev Ends := IVec S600000 32
abbrev PerNode := FVec Ideal S100000 .f32
abbrev PerEdge := FVec Ideal S600000 .f32

/-- The edges' source endpoints: row 0 of the edge list. -/
def src (e : EdgeList) : Ends :=
  shapeCast S600000 (extractStridedSlice S1x600000 ![0, 0] e slices_S2x600000_S1x600000_0_0) shapeCasts_S1x600000_S600000

/-- The edges' destination endpoints: row 1 of the edge list. -/
def dst (e : EdgeList) : Ends :=
  shapeCast S600000 (extractStridedSlice S1x600000 ![1, 0] e slices_S2x600000_S1x600000_1_0) shapeCasts_S1x600000_S600000

/-- The number of edges at each node of an endpoint list: ones scatter-added into zeros. -/
def count (ends : Ends) : PerNode :=
  Host.scatterAdd scatter_S100000_S600000x1_S600000_n_0_0_1
    (broadcastInDim S100000 ![] bcast_S_S100000 (constant (F := Ideal) S_ .f32 0x00000000#32))
    (broadcastInDim S600000x1 ![0] bcast_S600000_S600000x1_0 ends)
    (broadcastInDim S600000 ![] bcast_S_S600000 (constant (F := Ideal) S_ .f32 0x3F800000#32))

/-- degree^(-1/2) where the degree is positive (the degree first raised to at least one), zero elsewhere. -/
def invSqrt (d : PerNode) : PerNode :=
  select (cmpf (F := Ideal) .ogt d (broadcastInDim S100000 ![] bcast_S_S100000 (constant (F := Ideal) S_ .f32 0x00000000#32)))
    (Host.rsqrt (maximumf d (broadcastInDim S100000 ![] bcast_S_S100000 (constant (F := Ideal) S_ .f32 0x3F800000#32))))
    (broadcastInDim S100000 ![] bcast_S_S100000 (id (constant (F := Ideal) S_ .f32 0x00000000#32)))

/-- An endpoint index wrapped as a negative index is: i + 100000 where i < 0, i elsewhere. -/
def wrap (i : Ends) : Ends :=
  select (cmpi .slt i (broadcastInDim S600000 ![] bcast_S_S600000 (constantI S_ 32 0#32)))
    (addi i (broadcastInDim S600000 ![] bcast_S_S600000 (constantI S_ 32 100000#32))) i

/-- An edge's weight: invSqrt of the out-degree at its source times invSqrt of the in-degree at its destination. -/
def weight (e : EdgeList) : PerEdge :=
  mulf
    (Host.gather gather_S100000_S600000x1_S600000_n_0_n_n_0_1_1 (invSqrt (count (src e)))
      (broadcastInDim S600000x1 ![0] bcast_S600000_S600000x1_0 (wrap (src e))))
    (Host.gather gather_S100000_S600000x1_S600000_n_0_n_n_0_1_1 (invSqrt (count (dst e)))
      (broadcastInDim S600000x1 ![0] bcast_S600000_S600000x1_0 (wrap (dst e))))

/-- At each node of `at_`, the sum over its edges of the edge's weight times the feature row at the edge's `other` endpoint. -/
def aggregate (x : Feat) (w : PerEdge) (other at_ : Ends) : Feat :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 at_)
    (mulf
      (broadcastInDim S600000x128 ![0, 1] bcast_S600000x1_S600000x128_0_1 (broadcastInDim S600000x1 ![0] bcast_S600000_S600000x1_0 w))
      (Host.gather gather_S100000x128_S600000x1_S600000x128_1_0_n_n_0_1_1128 x
        (broadcastInDim S600000x1 ![0] bcast_S600000_S600000x1_0 (wrap other))))

/-- Summed at the sources: the destinations' rows. -/
def aggSrc (x : Feat) (e : EdgeList) : Feat := aggregate x (weight e) (dst e) (src e)

/-- Summed at the destinations: the sources' rows. -/
def aggDst (x : Feat) (e : EdgeList) : Feat := aggregate x (weight e) (src e) (dst e)

end Cert.ReferenceIdeal.Edges

end
-- ==== Proof.RegionEntry.lean ====
/-
  What the kernel's one region finds in its windows' arrays. Before the region @main runs 88 host operations: the graph
  aggregation (Edges.lean's aggSrc and aggDst of the features and the edge list, by the same operations as the reference),
  and a transpose of each weight matrix followed by a change of float format, which is the identity on the extended reals.
  So the two row-blocked windows hold aggSrc(x, e) and aggDst(x, e), the two weight windows hold W_sᵀ and W_dᵀ, and the
  bias windows hold the bias arguments as launched.
-/
import proofs.«124174_j62723702391593_1_alg».proof.Proof.Gen.KernelIdeal.Frame
import proofs.«124174_j62723702391593_1_alg».proof.Proof.Edges
import Idealize.ShloMosaic.Lib.StableHlo.Run

noncomputable section

namespace Cert.KernelIdeal.RegionEntry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 40000000 in
/-- The first row-blocked window's array is the aggregate summed at the sources. -/
theorem V_aggSrc (c : Dev nD) :
    V m c main_v50 = Cert.ReferenceIdeal.Edges.aggSrc (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  simp only [cast_eq]
  rfl

set_option maxRecDepth 8192 in
set_option maxHeartbeats 40000000 in
/-- The second row-blocked window's array is the aggregate summed at the destinations. -/
theorem V_aggDst (c : Dev nD) :
    V m c main_v63 = Cert.ReferenceIdeal.Edges.aggDst (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp
  simp only [cast_eq]
  rfl

set_option maxRecDepth 8192 in
set_option maxHeartbeats 40000000 in
/-- The first weight window's array is the transpose of the first weight argument. -/
theorem V_wsT (c : Dev nD) :
    V m c main_v65 = transpose Cert.ReferenceIdeal.S128x128 [1, 0] (m ((c : Thread nD τ).loc main_arg2))
      Cert.ReferenceIdeal.Gen.transposes_S128x128_S128x128_1_0 := by
  dsimp only [V]
  simp only [hostOps0, hostOps0_1, hostOps0_2, hostOps0_3, hostOps0_4, List.flatten_cons, List.flatten_nil, List.append_nil,
    List.cons_append, List.nil_append]
  after_results_simp
  rfl

set_option maxRecDepth 8192 in
set_option maxHeartbeats 40000000 in
/-- The second weight window's array is the transpose of the second weight argument. -/
theorem V_wdT (c : Dev nD) :
    V m c main_v67 = transpose Cert.ReferenceIdeal.S128x128 [1, 0] (m ((c : Thread nD τ).loc main_arg4))
      Cert.ReferenceIdeal.Gen.transposes_S128x128_S128x128_1_0 := by
  dsimp only [V]
  simp only [hostOps0, hostOps0_1, hostOps0_2, hostOps0_3, hostOps0_4, List.flatten_cons, List.flatten_nil, List.append_nil,
    List.cons_append, List.nil_append]
  after_results_simp
  rfl

end Cert.KernelIdeal.RegionEntry

end
-- ==== Proof.RefRun.lean ====
/-
  The reference program's run, read back: its @main is a straight line of 104 host operations, so every weakly fair
  execution ends with each buffer at the composition of the operations that wrote it, applied to the argument arrays as
  launched. Read at the result buffer, on the extended reals, that composition is

      h · (aggSrc(x, e) · W_sᵀ + b_s)  +  h · (aggDst(x, e) · W_dᵀ + b_d)

  (`value` below): the graph aggregation of Edges.lean, then two plain matrix products against the transposed weights,
  the biases spread over the rows, and the two halves added. The arguments end unchanged: no operation writes them.
-/
import proofs.«124174_j62723702391593_1_alg».proof.Proof.Edges
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.ReferenceIdeal.Edges

variable {F : FTy → Type} [FloatOps F]

/-- @main's operations, in order; the two calls of the module's `where` function stand as the callee's three operations. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_cst (constant S_ .f32 0x3F800000#32),
    unary main_cst main_v4 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v1 main_v6 (broadcastInDim S600000x1 ![0] bcast_S600000_S600000x1_0 : (⟨S600000, .i32⟩ : BufTy).Contents (Elt F) → (⟨S600000x1, .i32⟩ : BufTy).Contents (Elt F)),
    ternary main_v5 main_v6 main_v4 main_v7 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    unary main_v3 main_v9 (broadcastInDim S600000x1 ![0] bcast_S600000_S600000x1_0 : (⟨S600000, .i32⟩ : BufTy).Contents (Elt F) → (⟨S600000x1, .i32⟩ : BufTy).Contents (Elt F)),
    ternary main_v8 main_v9 main_v4 main_v10 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    binary main_v7 main_v11 main_v12 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v13 (broadcastInDim S100000 ![] bcast_S_S100000 : (⟨S_, .f32⟩ : BufTy).Contents (Elt F) → (⟨S100000, .f32⟩ : BufTy).Contents (Elt F)),
    binary main_v7 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S600000 ![] bcast_S_S600000 : (⟨S_, .i32⟩ : BufTy).Contents (Elt F) → (⟨S600000, .i32⟩ : BufTy).Contents (Elt F)),
    binary main_v1 main_v17 main_v18 (cmpi .slt : (⟨S600000, .i32⟩ : BufTy).Contents (Elt F) → (⟨S600000, .i32⟩ : BufTy).Contents (Elt F) → (⟨S600000, .i1⟩ : BufTy).Contents (Elt F)),
    nullary main_c_5 (constantI S_ 32 100000#32),
    unary main_c_5 main_v19 (broadcastInDim S600000 ![] bcast_S_S600000 : (⟨S_, .i32⟩ : BufTy).Contents (Elt F) → (⟨S600000, .i32⟩ : BufTy).Contents (Elt F)),
    binary main_v1 main_v19 main_v20 (addi : (⟨S600000, .i32⟩ : BufTy).Contents (Elt F) → (⟨S600000, .i32⟩ : BufTy).Contents (Elt F) → (⟨S600000, .i32⟩ : BufTy).Contents (Elt F)),
    ternary main_v18 main_v20 main_v1 main_v21 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v21 main_v22 (broadcastInDim S600000x1 ![0] bcast_S600000_S600000x1_0 : (⟨S600000, .i32⟩ : BufTy).Contents (Elt F) → (⟨S600000x1, .i32⟩ : BufTy).Contents (Elt F)),
    binary main_v16 main_v22 main_v23 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    nullary main_cst_6 (constant S_ .f32 0x00000000#32),
    unary main_cst_6 main_v24 (broadcastInDim S100000 ![] bcast_S_S100000 : (⟨S_, .f32⟩ : BufTy).Contents (Elt F) → (⟨S100000, .f32⟩ : BufTy).Contents (Elt F)),
    binary main_v10 main_v24 main_v25 (cmpf .ogt : (⟨S100000, .f32⟩ : BufTy).Contents (Elt F) → (⟨S100000, .f32⟩ : BufTy).Contents (Elt F) → (⟨S100000, .i1⟩ : BufTy).Contents (Elt F)),
    nullary main_cst_7 (constant S_ .f32 0x3F800000#32),
    unary main_cst_7 main_v26 (broadcastInDim S100000 ![] bcast_S_S100000 : (⟨S_, .f32⟩ : BufTy).Contents (Elt F) → (⟨S100000, .f32⟩ : BufTy).Contents (Elt F)),
    binary main_v10 main_v26 main_v27 (maximumf : (⟨S100000, .f32⟩ : BufTy).Contents (Elt F) → (⟨S100000, .f32⟩ : BufTy).Contents (Elt F) → (⟨S100000, .f32⟩ : BufTy).Contents (Elt F)),
    unary main_v27 main_v28 (Host.rsqrt : (⟨S100000, .f32⟩ : BufTy).Contents (Elt F) → (⟨S100000, .f32⟩ : BufTy).Contents (Elt F)),
    nullary main_cst_8 (constant S_ .f32 0x00000000#32),
    TRef.unary (TRef.of (T := ⟨S_, .f32⟩) main_cst_8) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v25) (TRef.of (T := ⟨S100000, .f32⟩) main_v28) (TRef.of (T := ⟨S100000, .f32⟩) main_call1_v1) (TRef.of (T := ⟨S100000, .f32⟩) main_v29) select,
    nullary main_c_9 (constantI S_ 32 0#32),
    unary main_c_9 main_v30 (broadcastInDim S600000 ![] bcast_S_S600000 : (⟨S_, .i32⟩ : BufTy).Contents (Elt F) → (⟨S600000, .i32⟩ : BufTy).Contents (Elt F)),
    binary main_v3 main_v30 main_v31 (cmpi .slt : (⟨S600000, .i32⟩ : BufTy).Contents (Elt F) → (⟨S600000, .i32⟩ : BufTy).Contents (Elt F) → (⟨S600000, .i1⟩ : BufTy).Contents (Elt F)),
    nullary main_c_10 (constantI S_ 32 100000#32),
    unary main_c_10 main_v32 (broadcastInDim S600000 ![] bcast_S_S600000 : (⟨S_, .i32⟩ : BufTy).Contents (Elt F) → (⟨S600000, .i32⟩ : BufTy).Contents (Elt F)),
    binary main_v3 main_v32 main_v33 (addi : (⟨S600000, .i32⟩ : BufTy).Contents (Elt F) → (⟨S600000, .i32⟩ : BufTy).Contents (Elt F) → (⟨S600000, .i32⟩ : BufTy).Contents (Elt F)),
    ternary main_v31 main_v33 main_v3 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v34 main_v35 (broadcastInDim S600000x1 ![0] bcast_S600000_S600000x1_0 : (⟨S600000, .i32⟩ : BufTy).Contents (Elt F) → (⟨S600000x1, .i32⟩ : BufTy).Contents (Elt F)),
    binary main_v29 main_v35 main_v36 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    binary main_v23 main_v36 main_v37 (mulf : (⟨S600000, .f32⟩ : BufTy).Contents (Elt F) → (⟨S600000, .f32⟩ : BufTy).Contents (Elt F) → (⟨S600000, .f32⟩ : BufTy).Contents (Elt F)),
    unary main_v37 main_v38 (broadcastInDim S600000x1 ![0] bcast_S600000_S600000x1_0 : (⟨S600000, .f32⟩ : BufTy).Contents (Elt F) → (⟨S600000x1, .f32⟩ : BufTy).Contents (Elt F)),
    nullary main_c_11 (constantI S_ 32 0#32),
    unary main_c_11 main_v39 (broadcastInDim S600000 ![] bcast_S_S600000 : (⟨S_, .i32⟩ : BufTy).Contents (Elt F) → (⟨S600000, .i32⟩ : BufTy).Contents (Elt F)),
    binary main_v3 main_v39 main_v40 (cmpi .slt : (⟨S600000, .i32⟩ : BufTy).Contents (Elt F) → (⟨S600000, .i32⟩ : BufTy).Contents (Elt F) → (⟨S600000, .i1⟩ : BufTy).Contents (Elt F)),
    nullary main_c_12 (constantI S_ 32 100000#32),
    unary main_c_12 main_v41 (broadcastInDim S600000 ![] bcast_S_S600000 : (⟨S_, .i32⟩ : BufTy).Contents (Elt F) → (⟨S600000, .i32⟩ : BufTy).Contents (Elt F)),
    binary main_v3 main_v41 main_v42 (addi : (⟨S600000, .i32⟩ : BufTy).Contents (Elt F) → (⟨S600000, .i32⟩ : BufTy).Contents (Elt F) → (⟨S600000, .i32⟩ : BufTy).Contents (Elt F)),
    ternary main_v40 main_v42 main_v3 main_v43 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v43 main_v44 (broadcastInDim S600000x1 ![0] bcast_S600000_S600000x1_0 : (⟨S600000, .i32⟩ : BufTy).Contents (Elt F) → (⟨S600000x1, .i32⟩ : BufTy).Contents (Elt F)),
    binary main_arg0 main_v44 main_v45 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v38 main_v46 (broadcastInDim S600000x128 ![0, 1] bcast_S600000x1_S600000x128_0_1 : (⟨S600000x1, .f32⟩ : BufTy).Contents (Elt F) → (⟨S600000x128, .f32⟩ : BufTy).Contents (Elt F)),
    binary main_v46 main_v45 main_v47 (mulf : (⟨S600000x128, .f32⟩ : BufTy).Contents (Elt F) → (⟨S600000x128, .f32⟩ : BufTy).Contents (Elt F) → (⟨S600000x128, .f32⟩ : BufTy).Contents (Elt F)),
    nullary main_cst_13 (constant S_ .f32 0x00000000#32),
    unary main_cst_13 main_v48 (broadcastInDim S100000x128 ![] bcast_S_S100000x128 : (⟨S_, .f32⟩ : BufTy).Contents (Elt F) → (⟨S100000x128, .f32⟩ : BufTy).Contents (Elt F)),
    unary main_v1 main_v49 (broadcastInDim S600000x1 ![0] bcast_S600000_S600000x1_0 : (⟨S600000, .i32⟩ : BufTy).Contents (Elt F) → (⟨S600000x1, .i32⟩ : BufTy).Contents (Elt F)),
    ternary main_v48 main_v49 main_v47 main_v50 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v37 main_v51 (broadcastInDim S600000x1 ![0] bcast_S600000_S600000x1_0 : (⟨S600000, .f32⟩ : BufTy).Contents (Elt F) → (⟨S600000x1, .f32⟩ : BufTy).Contents (Elt F)),
    nullary main_c_14 (constantI S_ 32 0#32),
    unary main_c_14 main_v52 (broadcastInDim S600000 ![] bcast_S_S600000 : (⟨S_, .i32⟩ : BufTy).Contents (Elt F) → (⟨S600000, .i32⟩ : BufTy).Contents (Elt F)),
    binary main_v1 main_v52 main_v53 (cmpi .slt : (⟨S600000, .i32⟩ : BufTy).Contents (Elt F) → (⟨S600000, .i32⟩ : BufTy).Contents (Elt F) → (⟨S600000, .i1⟩ : BufTy).Contents (Elt F)),
    nullary main_c_15 (constantI S_ 32 100000#32),
    unary main_c_15 main_v54 (broadcastInDim S600000 ![] bcast_S_S600000 : (⟨S_, .i32⟩ : BufTy).Contents (Elt F) → (⟨S600000, .i32⟩ : BufTy).Contents (Elt F)),
    binary main_v1 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_v1 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_arg0 main_v57 main_v58 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v51 main_v59 (broadcastInDim S600000x128 ![0, 1] bcast_S600000x1_S600000x128_0_1 : (⟨S600000x1, .f32⟩ : BufTy).Contents (Elt F) → (⟨S600000x128, .f32⟩ : BufTy).Contents (Elt F)),
    binary main_v59 main_v58 main_v60 (mulf : (⟨S600000x128, .f32⟩ : BufTy).Contents (Elt F) → (⟨S600000x128, .f32⟩ : BufTy).Contents (Elt F) → (⟨S600000x128, .f32⟩ : BufTy).Contents (Elt F)),
    nullary main_cst_16 (constant S_ .f32 0x00000000#32),
    unary main_cst_16 main_v61 (broadcastInDim S100000x128 ![] bcast_S_S100000x128 : (⟨S_, .f32⟩ : BufTy).Contents (Elt F) → (⟨S100000x128, .f32⟩ : BufTy).Contents (Elt F)),
    unary main_v3 main_v62 (broadcastInDim S600000x1 ![0] bcast_S600000_S600000x1_0 : (⟨S600000, .i32⟩ : BufTy).Contents (Elt F) → (⟨S600000x1, .i32⟩ : BufTy).Contents (Elt F)),
    ternary main_v61 main_v62 main_v60 main_v63 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg2 main_v64 ((transpose S128x128 [1, 0] · transposes_S128x128_S128x128_1_0) : (⟨S128x128, .f32⟩ : BufTy).Contents (Elt F) → (⟨S128x128, .f32⟩ : BufTy).Contents (Elt F)),
    binary main_v50 main_v64 main_v65 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v66 (broadcastInDim S1x128 ![1] bcast_S128_S1x128_1 : (⟨S128, .f32⟩ : BufTy).Contents (Elt F) → (⟨S1x128, .f32⟩ : BufTy).Contents (Elt F)),
    unary main_v66 main_v67 (broadcastInDim S100000x128 ![0, 1] bcast_S1x128_S100000x128_0_1 : (⟨S1x128, .f32⟩ : BufTy).Contents (Elt F) → (⟨S100000x128, .f32⟩ : BufTy).Contents (Elt F)),
    binary main_v65 main_v67 main_v68 (addf : (⟨S100000x128, .f32⟩ : BufTy).Contents (Elt F) → (⟨S100000x128, .f32⟩ : BufTy).Contents (Elt F) → (⟨S100000x128, .f32⟩ : BufTy).Contents (Elt F)),
    unary main_arg4 main_v69 ((transpose S128x128 [1, 0] · transposes_S128x128_S128x128_1_0) : (⟨S128x128, .f32⟩ : BufTy).Contents (Elt F) → (⟨S128x128, .f32⟩ : BufTy).Contents (Elt F)),
    binary main_v63 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3F000000#32),
    unary main_cst_17 main_v74 (broadcastInDim S100000x128 ![] bcast_S_S100000x128 : (⟨S_, .f32⟩ : BufTy).Contents (Elt F) → (⟨S100000x128, .f32⟩ : BufTy).Contents (Elt F)),
    binary main_v74 main_v68 main_v75 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x3F000000#32),
    unary main_cst_18 main_v76 (broadcastInDim S100000x128 ![] bcast_S_S100000x128 : (⟨S_, .f32⟩ : BufTy).Contents (Elt F) → (⟨S100000x128, .f32⟩ : BufTy).Contents (Elt F)),
    binary main_v76 main_v73 main_v77 (mulf : (⟨S100000x128, .f32⟩ : BufTy).Contents (Elt F) → (⟨S100000x128, .f32⟩ : BufTy).Contents (Elt F) → (⟨S100000x128, .f32⟩ : BufTy).Contents (Elt F)),
    binary main_v75 main_v77 main_v78 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., binary_bufs_sub ..⟩

/-- One branch of the dense stage as the reference computes it: the host's matrix product of an aggregate with the
    transposed weights, plus the bias spread over the rows. -/
def branch (a : Feat) (w : FVec Ideal S128x128 .f32) (b : FVec Ideal S128 .f32) : Feat :=
  addf (Host.dotGeneral dot_S100000x128_S128x128_S100000x128_1_0_0_1_n_n none a (transpose S128x128 [1, 0] w transposes_S128x128_S128x128_1_0))
    (broadcastInDim S100000x128 ![0, 1] bcast_S1x128_S100000x128_0_1 (broadcastInDim S1x128 ![1] bcast_S128_S1x128_1 b))

/-- The result array as a function of the six arguments: half of each branch, added. -/
def value (x : Feat) (e : EdgeList) (ws : FVec Ideal S128x128 .f32) (bs : FVec Ideal S128 .f32)
    (wd : FVec Ideal S128x128 .f32) (bd : FVec Ideal S128 .f32) : Feat :=
  addf
    (mulf (broadcastInDim S100000x128 ![] bcast_S_S100000x128 (constant (F := Ideal) S_ .f32 0x3F000000#32)) (branch (aggSrc x e) ws bs))
    (mulf (broadcastInDim S100000x128 ![] bcast_S_S100000x128 (constant (F := Ideal) S_ .f32 0x3F000000#32)) (branch (aggDst x e) wd bd))

set_option maxRecDepth 8192 in
set_option maxHeartbeats 41600000 in
/-- Every weakly fair execution of @main terminates with the result buffer at `value` of the arguments as launched and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v78).trans (by after_results_simp; simp only [cast_eq]; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.HostRun

end
-- ==== Proof.RefEntry.lean ====
/-
  The reference's result read at an entry. At (p, q) the value of RefRun.lean is

      h · (Σ_k aggSrc(x, e)[p, k] · W_sᵀ[k, q] + b_s[q])  +  h · (Σ_k aggDst(x, e)[p, k] · W_dᵀ[k, q] + b_d[q]),

  the combination of DualLayer.lean: the host's matrix product is the sum over the contracted coordinate, a bias spread
  first to one row and then over all rows reads the bias at the column, and a splat scalar reads the scalar.
-/
import proofs.«124174_j62723702391593_1_alg».proof.Proof.RefRun
import proofs.«124174_j62723702391593_1_alg».proof.Proof.DualLayer
import Idealize.ShloMosaic.Lib.Pipeline.Value
import Idealize.ShloMosaic.Lib.ValueIdx

noncomputable section

namespace Cert.ReferenceIdeal.Entry

open Cert.ReferenceIdeal Cert.ReferenceIdeal.Gen Idealize.ShloMosaic Idealize.ShloMosaic.ValueIdx Cert.Bridge
open Cert.ReferenceIdeal.Edges Cert.ReferenceIdeal.HostRun

/-- The reference's contraction record is the plain M×K by K×N one. -/
theorem dims_plain : dot_S100000x128_S128x128_S100000x128_1_0_0_1_n_n = DotDims.plain 100000 128 128 := rfl

/-- A bias spread to one row, then over the rows, read at (p, q), is the bias at q. -/
theorem bias_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  refine (broadcastInDim_apply _ bcast_S1x128_S100000x128_0_1 _ (ix2 p q) (ix2 (0 : Fin 1) q) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
  · refine broadcastInDim_apply _ bcast_S128_S1x128_1 b (ix2 (0 : Fin 1) q) (ix1 q) (fun a => ?_)
    match a with
    | ⟨0, _⟩ => show q.val = if (128 : Nat) = 1 then 0 else q.val; rw [if_neg (by decide)]

/-- One branch at (p, q): the contraction of row p of the aggregate with column q of the transposed weights, plus b[q]. -/
theorem branch_apply (a : Feat) (w : FVec Ideal S128x128 .f32) (b : FVec Ideal S128 .f32) (p : Fin 100000) (q : Fin 128) :
    branch a w b (ix2 p q)
      = Spec.head (LayerAt.mat a) (LayerAt.mat (transpose S128x128 [1, 0] w transposes_S128x128_S128x128_1_0)) (DualLayer.vec b) p q := by
  unfold branch
  rw [addf_apply, bias_apply, dims_plain]
  refine congrArg (· + b (ix1 q)) ?_
  exact LibMatmul.dotGeneral_apply none .single a _ p q

/-- The result at (p, q) is the combination of the two branches. -/
theorem value_apply (x : Feat) (e : EdgeList) (ws : FVec Ideal S128x128 .f32) (bs : FVec Ideal S128 .f32)
    (wd : FVec Ideal S128x128 .f32) (bd : FVec Ideal S128 .f32) (p : Fin 100000) (q : Fin 128) :
    value x e ws bs wd bd (ix2 p q)
      = DualLayer.mix (LayerAt.mat (aggSrc x e)) (LayerAt.mat (aggDst x e))
          (LayerAt.mat (transpose S128x128 [1, 0] ws transposes_S128x128_S128x128_1_0))
          (LayerAt.mat (transpose S128x128 [1, 0] wd transposes_S128x128_S128x128_1_0)) (DualLayer.vec bs) (DualLayer.vec bd) p q := by
  unfold value
  rw [addf_apply, mulf_apply, mulf_apply, branch_apply, branch_apply]
  rfl

/-- So the result array is the combination as one array. -/
theorem value_eq (x : Feat) (e : EdgeList) (ws : FVec Ideal S128x128 .f32) (bs : FVec Ideal S128 .f32)
    (wd : FVec Ideal S128x128 .f32) (bd : FVec Ideal S128 .f32) :
    value x e ws bs wd bd
      = DualLayer.array (aggSrc x e) (aggDst x e) (transpose S128x128 [1, 0] ws transposes_S128x128_S128x128_1_0)
          (transpose S128x128 [1, 0] wd transposes_S128x128_S128x128_1_0) bs bd := by
  funext i
  obtain ⟨p, q, rfl⟩ : ∃ (p : Fin 100000) (q : Fin 128), i = ix2 p q := ⟨i 0, i 1, eq_ix2 i⟩
  rw [value_apply, DualLayer.array_apply]

end Cert.ReferenceIdeal.Entry

end
-- ==== Proof.lean ====
/-
  The kernel computes, for a directed graph with node features x and edge list e, the directed-degree-normalised
  aggregates aggSrc(x, e) and aggDst(x, e) by host operations, and then, in one region over twenty blocks of 5000 rows,

      out = h · (aggSrc · W_sᵀ + b_s) + h · (aggDst · W_dᵀ + b_d),        h the f32 word of one half,

  with the weights transposed (and narrowed, which is the identity on the extended reals) on the host and each product
  taken on the matrix unit into a zero accumulator. The reference computes the same aggregates by the same host operations
  and the same expression with the host's matrix product over all 100000 rows at once.

  On the extended reals both results are, entry by entry, the combination of DualLayer.lean of the same six arrays:
  the kernel's because each block of rows of the result depends on the same block of rows of the two aggregates alone
  (BlockRows.lean over BodyEntry.lean, with the region-entry arrays read in RegionEntry.lean), the reference's by reading
  its run (RefRun.lean) at an entry (RefEntry.lean). A contraction is read as a sum over the contracted coordinate on both
  sides and nothing else of the arithmetic is touched, so the precondition (finite inputs) is never opened.
  The three frames: the two kernels' are the generated frame certificates; the reference's is its run with the result
  dropped. The idealization rewrote nothing, so there is nothing to preserve.
-/
import proofs.«124174_j62723702391593_1_alg».proof.Defs
import proofs.«124174_j62723702391593_1_alg».proof.Proof.Gen.Kernel
import proofs.«124174_j62723702391593_1_alg».proof.Proof.Gen.Kernel.Skeleton
import proofs.«124174_j62723702391593_1_alg».proof.Proof.Gen.Kernel.Launch
import proofs.«124174_j62723702391593_1_alg».proof.Proof.Gen.Kernel.Points
import proofs.«124174_j62723702391593_1_alg».proof.Proof.Gen.Kernel.Frame
import proofs.«124174_j62723702391593_1_alg».proof.Proof.Gen.KernelIdeal
import proofs.«124174_j62723702391593_1_alg».proof.Proof.Gen.KernelIdeal.Skeleton
import proofs.«124174_j62723702391593_1_alg».proof.Proof.Gen.KernelIdeal.Launch
import proofs.«124174_j62723702391593_1_alg».proof.Proof.Gen.KernelIdeal.Points
import proofs.«124174_j62723702391593_1_alg».proof.Proof.Gen.KernelIdeal.Frame
import proofs.«124174_j62723702391593_1_alg».proof.Proof.Gen.ReferenceIdeal
import proofs.«124174_j62723702391593_1_alg».proof.Proof.Gen.Pre_finite_inputs
import proofs.«124174_j62723702391593_1_alg».proof.Proof.Gen.KernelIdeal.Value
import proofs.«124174_j62723702391593_1_alg».proof.Proof.BlockRows
import proofs.«124174_j62723702391593_1_alg».proof.Proof.RegionEntry
import proofs.«124174_j62723702391593_1_alg».proof.Proof.RefEntry
import Idealize.ShloMosaic.Adequacy
import Idealize.ShloMosaic.Init

noncomputable section

namespace Cert.Proof

open Idealize.ShloMosaic Idealize.ShloMosaic.TcCoe Idealize.SL.Sem

/-! ## The two results are one array -/

/-- The kernel's result array is the reference's value of the same arguments: the region finds the two aggregates, the
    transposed weights and the biases in its windows, and the reference's value is the combination of exactly those. -/
theorem result_eq (m : (ℓ : Loc Cert.KernelIdeal.nD Cert.KernelIdeal.τ Cert.KernelIdeal.sig) → Buf (Elt Ideal) ℓ) (c : Dev Cert.KernelIdeal.nD) :
    Cert.ReferenceIdeal.HostRun.value
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.BlockRows.result m c := by
  unfold Cert.KernelIdeal.BlockRows.result
  rw [Cert.KernelIdeal.RegionEntry.V_aggSrc, Cert.KernelIdeal.RegionEntry.V_aggDst, Cert.KernelIdeal.RegionEntry.V_wsT,
    Cert.KernelIdeal.RegionEntry.V_wdT, Cert.KernelIdeal.Gen.V_main_arg3, Cert.KernelIdeal.Gen.V_main_arg5,
    Cert.ReferenceIdeal.Entry.value_eq]

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run m ρ)

/-- The idealization's ledger is empty. -/
theorem preserves : Cert.preserves_Kernel_KernelIdeal := trivial

/-- From memories that agree on the arguments both programs end with the combination of the same six arrays. -/
theorem algebraic : Cert.algebraic_KernelIdeal_ReferenceIdeal := by
  intro m ρ m' ρ' _ hagree
  refine ⟨fun c => Cert.KernelIdeal.BlockRows.result m c, Cert.KernelIdeal.BlockRows.run m ρ, ?_⟩
  refine (θ_run Cert.ReferenceIdeal.defs _ _).mono (fun _ h c => ⟨(h c).1.trans ?_, (h c).2⟩)
    (Cert.ReferenceIdeal.HostRun.run m' ρ')
  obtain ⟨h0, h1, h2, h3, h4, h5⟩ := hagree c
  rw [h0, h1, h2, h3, h4, h5]
  exact result_eq m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
